-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50000 : Shape := ⟨2, ![1024, 50000]⟩
abbrev S50000x300 : Shape := ⟨2, ![50000, 300]⟩
abbrev S_ : Shape := ⟨0, ![]⟩

class Facts : Prop where
  bcast_S_S1024x50000 : S_.BroadcastsInDim S1024x50000 (![] : Fin 0 → Fin S1024x50000.rank)
  reducesTo_S1024x50000_S_d0_1 : S1024x50000.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_

variable [Facts]

def fn {F : FTy → Type} [FloatOps F] (main_arg0 : FVec F S1024x50000 .f32) (main_arg1 : FVec F S50000x300 .f32) : IVec S_ 1 :=
  let main_v0 : FVec F S1024x50000 .f32 := Host.absf main_arg0
  let main_cst : FVec F S_ .f32 := constant S_ .f32 0x7F800000#32
  let main_v1 : FVec F S1024x50000 .f32 := broadcastInDim S1024x50000 ![] bcast_S_S1024x50000 main_cst
  let main_v2 : IVec S1024x50000 1 := cmpf .olt main_v0 main_v1
  let main_c : IVec S_ 1 := constantI S_ 1 1#1
  let main_v3 : IVec S_ 1 := (fun x v => Host.reduce IntOp.andi x v reducesTo_S1024x50000_S_d0_1 h_S_) main_v2 main_c
  let main_v4 : FVec F S50000x300 .f32 := Host.absf main_arg1
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  main_v8
-- ==== Kernel.lean ====
abbrev S1024x50000 : Shape := ⟨2, ![1024, 50000]⟩
abbrev S50000x300 : Shape := ⟨2, ![50000, 300]⟩
abbrev S_ : Shape := ⟨0, ![]⟩
abbrev S1024x50048 : Shape := ⟨2, ![1024, 50048]⟩
abbrev S50048x300 : Shape := ⟨2, ![50048, 300]⟩
abbrev S1024x300 : Shape := ⟨2, ![1024, 300]⟩
abbrev S512x2944 : Shape := ⟨2, ![512, 2944]⟩
abbrev S2944x300 : Shape := ⟨2, ![2944, 300]⟩
abbrev S512x300 : Shape := ⟨2, ![512, 300]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S1024x50000, .f32⟩
  | .hbm, ⟨1, _⟩ => ⟨S50000x300, .f32⟩
  | .hbm, ⟨2, _⟩ => ⟨S_, .i32⟩
  | .hbm, ⟨3, _⟩ => ⟨S_, .f32⟩
  | .hbm, ⟨4, _⟩ => ⟨S1024x50048, .f32⟩
  | .hbm, ⟨5, _⟩ => ⟨S_, .i32⟩
  | .hbm, ⟨6, _⟩ => ⟨S_, .f32⟩
  | .hbm, ⟨7, _⟩ => ⟨S50048x300, .f32⟩
  | .hbm, ⟨8, _⟩ => ⟨S1024x300, .f32⟩
  | .local _ .vmem, ⟨0, _⟩ => ⟨S512x2944, .f32⟩
  | .local _ .vmem, ⟨1, _⟩ => ⟨S512x2944, .f32⟩
  | .local _ .vmem, ⟨2, _⟩ => ⟨S2944x300, .f32⟩
  | .local _ .vmem, ⟨3, _⟩ => ⟨S2944x300, .f32⟩
  | .local _ .vmem, ⟨4, _⟩ => ⟨S512x300, .f32⟩
  | .local _ .vmem, ⟨5, _⟩ => ⟨S512x300, .f32⟩
  | .local _ .vmem, ⟨6, _⟩ => ⟨S512x300, .f32⟩
  | _, _ => ⟨S1024x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v15 : BitVec 1 := Scalar.cmpi .eq arg1 c16_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2944x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S1024x50000_S1024x50048_000_0480 : S1024x50000.Pads (![0, 0] : Fin 2 → Nat) ![0, 48] ![0, 0] S1024x50048
  h_S_ : 0 < S_.numel
  pads_S50000x300_S50048x300_0480_000 : S50000x300.Pads (![0, 0] : Fin 2 → Nat) ![48, 0] ![0, 0] S50048x300
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S512x2944_S512x2944_0_0 : ∀ a, (![0, 0] : Fin 2 → Nat) a + S512x2944.size a ≤ S512x2944.size a
  h_S512x2944 : 0 < S512x2944.numel
  shapeCasts_S512x2944_S512x2944 : S512x2944.ShapeCasts S512x2944
  bitsLt_bf16_f32 : FTy.bits .bf16 < FTy.bits .f32
  inb_S2944x300_S2944x300_0_0 : ∀ a, (![0, 0] : Fin 2 → Nat) a + S2944x300.size a ≤ S2944x300.size a
  h_S2944x300 : 0 < S2944x300.numel
  shapeCasts_S2944x300_S2944x300 : S2944x300.ShapeCasts S2944x300
  reduces_S512x300_S512 : S512x300.Reduces [1] S512
  shapeCasts_S512_S512x1 : S512.ShapeCasts S512x1
  broadcasts_S512x1_S512x300 : S512x1.Broadcasts S512x300
  dot_S512x2944_S2944x300_S512x300_1_0_0_1_n_n_wf : DotDims.WF S512x2944 S2944x300 S512x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2944.size a ≤ S1024x50048.size a
  hwx0_0 : ∀ i : grid0.Coords, EltTy.bits .f32 = 32 ∨ (Rect.block (s := S1024x50048) S512x2944.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x300.size a ≤ S50048x300.size a
  hwx0_1 : ∀ i : grid0.Coords, EltTy.bits .f32 = 32 ∨ (Rect.block (s := S50048x300) S2944x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x300.size a ≤ S1024x300.size a
  hwx0_2 : ∀ i : grid0.Coords, EltTy.bits .f32 = 32 ∨ (Rect.block (s := S1024x300) S512x300.size (cc0_transform_2 i) (hinb0_2 i)).WholeWords (EltTy.packing .f32)

variable [Facts₀]

def dot_S512x2944_S2944x300_S512x300_1_0_0_1_n_n : DotDims S512x2944 S2944x300 S512x300 where
  lhsContracting := [1]
  rhsContracting := [0]
  lhsNonContracting := [0]
  rhsNonContracting := [1]
  lhsBatch := []
  rhsBatch := []
  wf := dot_S512x2944_S2944x300_S512x300_1_0_0_1_n_n_wf

abbrev win0_0 : Pipeline.Window sig grid0 :=
  Pipeline.Window.ofSpec (Memref.whole main_v0) S512x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2944x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x50000 : Shape := ⟨2, ![1024, 50000]⟩
abbrev S50000x300 : Shape := ⟨2, ![50000, 300]⟩
abbrev S1024x300 : Shape := ⟨2, ![1024, 300]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x50000, .f32⟩
  | .hbm, ⟨1, _⟩ => ⟨S50000x300, .f32⟩
  | .hbm, ⟨2, _⟩ => ⟨S1024x300, .f32⟩
  | .hbm, ⟨3, _⟩ => ⟨S1024x300, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x300, .f32⟩
  | .hbm, ⟨12, _⟩ => ⟨S1024x300, .f32⟩
  | _, _ => ⟨S1024x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S1024x300_S1024_d1 : S1024x300.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x300_0_1 : S1024x1.BroadcastsInDim S1024x300 (![0, 1] : Fin 2 → Fin S1024x300.rank)
  dot_S1024x50000_S50000x300_S1024x300_1_0_0_1_n_n_wf : DotDims.WF S1024x50000 S50000x300 S1024x300 [1] [0] [0] [1] [] []

variable [Facts₀]

def dot_S1024x50000_S50000x300_S1024x300_1_0_0_1_n_n : DotDims S1024x50000 S50000x300 S1024x300 where
  lhsContracting := [1]
  rhsContracting := [0]
  lhsNonContracting := [0]
  rhsNonContracting := [1]
  lhsBatch := []
  rhsBatch := []
  wf := dot_S1024x50000_S50000x300_S1024x300_1_0_0_1_n_n_wf

class Facts : Prop extends Facts₀ where

variable [Facts]
-- ==== Proof.Pieces.lean ====
/-
  What one run of the kernel body leaves behind, as values.

  The body keeps a running [512, 300] accumulator in a scratch buffer.  At the first step of a row tile it clears
  the accumulator, at every step it adds the product of the step's [512, 2944] block of the left operand and
  [2944, 300] block of the right operand, and at the last step it reads the accumulator back, divides every row
  by its Euclidean norm plus a small constant, and stores the result.  Each of these is one whole-buffer store,
  so what a step leaves in a buffer is that store's value: the accumulator update applied to the cleared
  accumulator at the first step, to what the step before left at every other step, and the normalised rows of
  the updated accumulator in the output at the last step.
-/
import proofs.«159803_j46651934769338_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access, however the zeros are written. -/
theorem zero_offsets : (![0, 0] : Fin 2 → Nat) = fun _ => 0 := funext fun a => by fin_cases a <;> rfl

/-- First step of a row tile: the accumulator is cleared, read back, and the step's product is added to it. -/
theorem acc_first (c : Dev nD) (i : grid0.Coords) (a2 : Memref sig .tc .vmem S512x2944 .f32) (h2 : a2.IsWhole)
    (a3 : Memref sig .tc .vmem S2944x300 .f32) (h3 : a3.IsWhole) (a4 : Memref sig .tc .vmem S512x300 .f32) (h4 : a4.IsWhole)
    (a5 : Memref sig .tc .vmem S512x300 .f32) (h5 : a5.IsWhole) (hc0 : cond0_0 i) (hc1 : ¬cond0_1 i)
    (x0 : Vec F S512x2944 .f32) (x1 : Vec F S2944x300 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x300) zero_offsets, View.readCov_unit_zero (S := S512x300) _ zero_offsets]
  simp only [View.readAt_eq_ld, h2.read_unread, h3.read_unread, View.ld_unit_zero (S := S512x2944) zero_offsets,
    View.ld_unit_zero (S := S2944x300) zero_offsets]

/-- A middle step: the step's product is added to what the step before left in the accumulator. -/
theorem acc_middle (c : Dev nD) (i : grid0.Coords) (a2 : Memref sig .tc .vmem S512x2944 .f32) (h2 : a2.IsWhole)
    (a3 : Memref sig .tc .vmem S2944x300 .f32) (h3 : a3.IsWhole) (a4 : Memref sig .tc .vmem S512x300 .f32) (h4 : a4.IsWhole)
    (a5 : Memref sig .tc .vmem S512x300 .f32) (h5 : a5.IsWhole) (hc0 : ¬cond0_0 i) (hc1 : ¬cond0_1 i)
    (x0 : Vec F S512x2944 .f32) (x1 : Vec F S2944x300 .f32) (xs : Vec F S512x300 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S512x300) zero_offsets]
  simp only [View.readAt_eq_ld, h2.read_unread, h3.read_unread, h5.read_unread, View.ld_unit_zero (S := S512x2944) zero_offsets,
    View.ld_unit_zero (S := S2944x300) zero_offsets, View.ld_unit_zero (S := S512x300) zero_offsets]

/-- The last step leaves the same update in the accumulator … -/
theorem acc_last (c : Dev nD) (i : grid0.Coords) (a2 : Memref sig .tc .vmem S512x2944 .f32) (h2 : a2.IsWhole)
    (a3 : Memref sig .tc .vmem S2944x300 .f32) (h3 : a3.IsWhole) (a4 : Memref sig .tc .vmem S512x300 .f32) (h4 : a4.IsWhole)
    (a5 : Memref sig .tc .vmem S512x300 .f32) (h5 : a5.IsWhole) (hc0 : ¬cond0_0 i) (hc1 : cond0_1 i)
    (x0 : Vec F S512x2944 .f32) (x1 : Vec F S2944x300 .f32) (xs : Vec F S512x300 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S512x300) zero_offsets]
  simp only [View.readAt_eq_ld, h2.read_unread, h3.read_unread, h5.read_unread, View.ld_unit_zero (S := S512x2944) zero_offsets,
    View.ld_unit_zero (S := S2944x300) zero_offsets, View.ld_unit_zero (S := S512x300) zero_offsets]

/-- … and, in the output block, the normalised rows of that updated accumulator. -/
theorem out_last (c : Dev nD) (i : grid0.Coords) (a2 : Memref sig .tc .vmem S512x2944 .f32) (h2 : a2.IsWhole)
    (a3 : Memref sig .tc .vmem S2944x300 .f32) (h3 : a3.IsWhole) (a4 : Memref sig .tc .vmem S512x300 .f32) (h4 : a4.IsWhole)
    (a5 : Memref sig .tc .vmem S512x300 .f32) (h5 : a5.IsWhole) (hc0 : ¬cond0_0 i) (hc1 : cond0_1 i)
    (x0 : Vec F S512x2944 .f32) (x1 : Vec F S2944x300 .f32) (xs : Vec F S512x300 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S512x300) zero_offsets, View.readCov_unit_zero (S := S512x300) _ zero_offsets]
  simp only [View.readAt_eq_ld, h2.read_unread, h3.read_unread, h5.read_unread, View.ld_unit_zero (S := S512x2944) zero_offsets,
    View.ld_unit_zero (S := S2944x300) zero_offsets, View.ld_unit_zero (S := S512x300) zero_offsets]

end Cert.KernelIdeal.Pieces

end
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.Payloads.lean ====
/-
  The body's two computed values, read entry by entry over the extended reals.

  The accumulator update at (r, d) is the old entry plus the sum over the block's 2944 inner positions k of
  left(r, k) · right(k, d): the change to a 16-bit format before the product is the identity on extended
  reals, and the product unit adds into a zero block.  The normalised block at (r, d) is the entry divided by
  the square root of the sum of the squares of row r, plus the constant: the row sum is kept as a [512, 1]
  column and spread back along the row.
-/
import proofs.«159803_j46651934769338_1_alg».proof.Proof.Gen.KernelIdeal.Skeleton
import proofs.«159803_j46651934769338_1_alg».proof.Proof.LibColumns
import proofs.«159803_j46651934769338_1_alg».proof.Proof.LibKeepdims
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen

/-- The cleared accumulator is zero everywhere. -/
theorem cleared_apply (i : S512x300.Idx) : k0_pay1 (F := Ideal) i = 0 := by
  unfold k0_pay1
  rw [shapeCast_self]
  exact Ideal.ofBits_zero_f32

theorem lhs_row (i : S512x300.Idx) (q : dot_S512x2944_S2944x300_S512x300_1_0_0_1_n_n.contr.Idx) :
    (dot_S512x2944_S2944x300_S512x300_1_0_0_1_n_n.lhsIdx i q 0).val = (i 0).val := by
  unfold DotDims.lhsIdx
  rw [dif_neg (show ¬(0 : Fin S512x2944.rank) ∈ dot_S512x2944_S2944x300_S512x300_1_0_0_1_n_n.lhsBatch by decide),
    dif_pos (show (0 : Fin S512x2944.rank) ∈ dot_S512x2944_S2944x300_S512x300_1_0_0_1_n_n.lhsNonContracting by decide)]
  rfl

theorem lhs_inner (i : S512x300.Idx) (q : dot_S512x2944_S2944x300_S512x300_1_0_0_1_n_n.contr.Idx) :
    (dot_S512x2944_S2944x300_S512x300_1_0_0_1_n_n.lhsIdx i q 1).val = (q ⟨0, by decide⟩).val :=
  dot_S512x2944_S2944x300_S512x300_1_0_0_1_n_n.lhsIdx_val_of_single rfl i q

theorem rhs_inner (i : S512x300.Idx) (q : dot_S512x2944_S2944x300_S512x300_1_0_0_1_n_n.contr.Idx) :
    (dot_S512x2944_S2944x300_S512x300_1_0_0_1_n_n.rhsIdx i q 0).val = (q ⟨0, by decide⟩).val :=
  dot_S512x2944_S2944x300_S512x300_1_0_0_1_n_n.rhsIdx_val_of_single rfl i q

theorem rhs_col (i : S512x300.Idx) (q : dot_S512x2944_S2944x300_S512x300_1_0_0_1_n_n.contr.Idx) :
    (dot_S512x2944_S2944x300_S512x300_1_0_0_1_n_n.rhsIdx i q 1).val = (i 1).val := by
  unfold DotDims.rhsIdx
  rw [dif_neg (show ¬(1 : Fin S2944x300.rank) ∈ dot_S512x2944_S2944x300_S512x300_1_0_0_1_n_n.rhsBatch by decide),
    dif_pos (show (1 : Fin S2944x300.rank) ∈ dot_S512x2944_S2944x300_S512x300_1_0_0_1_n_n.rhsNonContracting by decide)]
  rfl

/-- The accumulator update at (r, d): the old entry plus the block product's entry. -/
theorem update_apply (x0 : Vec Ideal S512x2944 .f32) (x1 : Vec Ideal S2944x300 .f32) (acc : Vec Ideal S512x300 .f32)
    (r : Fin 512) (d : Fin 300) :
    k0_pay2 (F := Ideal) x0 x1 acc (ix2 r d) = acc (ix2 r d) + ∑ k : Fin 2944, x0 (ix2 r k) * x1 (ix2 k d) := by
  unfold k0_pay2
  simp only [shapeCast_self]
  show acc (ix2 r d) + FloatOps.matmul dot_S512x2944_S2944x300_S512x300_1_0_0_1_n_n none _ _ (constant (F := Ideal) S512x300 .f32 0x00000000#32) (ix2 r d) = _
  rw [Ideal.matmul_constant_zero_apply,
    ← Equiv.sum_comp (ValueIdx.contrEquiv1 dot_S512x2944_S2944x300_S512x300_1_0_0_1_n_n 2944 rfl rfl).symm]
  refine congrArg (acc (ix2 r d) + ·) (Finset.sum_congr rfl fun k _ => ?_)
  have hk := ValueIdx.contrEquiv1_symm_val dot_S512x2944_S2944x300_S512x300_1_0_0_1_n_n 2944 rfl rfl k
  have el : dot_S512x2944_S2944x300_S512x300_1_0_0_1_n_n.lhsIdx (ix2 r d)
      ((ValueIdx.contrEquiv1 dot_S512x2944_S2944x300_S512x300_1_0_0_1_n_n 2944 rfl rfl).symm k) = ix2 r k :=
    funext fun a => Fin.ext (by
      match a with
      | ⟨0, _⟩ => exact lhs_row _ _
      | ⟨1, _⟩ => exact (lhs_inner _ _).trans hk)
  have er : dot_S512x2944_S2944x300_S512x300_1_0_0_1_n_n.rhsIdx (ix2 r d)
      ((ValueIdx.contrEquiv1 dot_S512x2944_S2944x300_S512x300_1_0_0_1_n_n 2944 rfl rfl).symm k) = ix2 k d :=
    funext fun a => Fin.ext (by
      match a with
      | ⟨0, _⟩ => exact (rhs_inner _ _).trans hk
      | ⟨1, _⟩ => exact rhs_col _ _)
  rw [el, er]
  rfl

/-- The normalised block at (r, d): the entry over the root of its row's sum of squares plus the constant. -/
theorem normalised_apply (v : Vec Ideal S512x300 .f32) (r : Fin 512) (d : Fin 300) :
    k0_pay3 (F := Ideal) v (ix2 r d)
      = Ideal.div (v (ix2 r d)) (Ideal.sqrt (∑ e : Fin 300, v (ix2 r e) * v (ix2 r e)) + Ideal.ofBits .f32 0x33D6BF95#32) := by
  unfold k0_pay3
  show Ideal.div (v (ix2 r d)) (broadcastTo S512x300 _ broadcasts_S512x1_S512x300 (ix2 r d)) = _
  rw [Cert.Keepdims.column_broadcast_apply]
  show Ideal.div (v (ix2 r d)) (Ideal.sqrt (shapeCast S512x1 _ shapeCasts_S512_S512x1 (ix2 r (0 : Fin 1))) + Ideal.ofBits .f32 0x33D6BF95#32) = _
  rw [Cert.TriInv.asColumn_apply]
  refine congrArg (fun s => Ideal.div (v (ix2 r d)) (Ideal.sqrt s + Ideal.ofBits .f32 0x33D6BF95#32)) ?_
  exact Cert.Keepdims.rowSum_apply (mulf v v) _ _ _ _ r

end Cert.KernelIdeal.Payloads

end
-- ==== Proof.Spec.lean ====
/-
  The common value of the two programs, over the extended reals.

  Both compute attr = labels · weight, a [1024, 300] array whose entry (b, d) is the sum over the 50000 inner
  positions v of labels(b, v) · weight(v, d), and then divide every row of attr by its Euclidean norm plus one
  fixed small constant.

  One program forms each entry of attr in seventeen pieces: the inner axis is lengthened to 50048 = 17 · 2944 by
  appending zeros to both operands, and the partial sums over consecutive stretches of 2944 positions are added
  in turn.  A sum over the first 17 · 2944 naturals is the sum, stretch by stretch, of the sums over each stretch;
  the 48 appended positions contribute 0 · 0 = 0 each; so the seventeen pieces add up to the entry of attr.  Only
  commutativity and associativity of addition are used, so no finiteness is needed.
-/
import Idealize.ShloMosaic.PureOps.Ideal
import Idealize.ShloMosaic.Lib.ValueIdx

noncomputable section

open Idealize.ShloMosaic Idealize.ShloMosaic.ValueIdx

namespace Cert.Spec

/-- Entry (b, d) of the product labels · weight. -/
def attr (L : (⟨2, ![1024, 50000]⟩ : Shape).Idx → EReal) (W : (⟨2, ![50000, 300]⟩ : Shape).Idx → EReal)
    (b : Fin 1024) (d : Fin 300) : EReal :=
  ∑ v : Fin 50000, L (ix2 b v) * W (ix2 v d)

/-- Entry d of a row of 300 numbers divided by the row's Euclidean norm plus the constant. -/
def normalised (a : Fin 300 → EReal) (d : Fin 300) : EReal :=
  Ideal.div (a d) (Ideal.sqrt (∑ e : Fin 300, a e * a e) + Ideal.ofBits .f32 0x33D6BF95#32)

/-- The result array: every row of labels · weight, normalised. -/
def result (L : (⟨2, ![1024, 50000]⟩ : Shape).Idx → EReal) (W : (⟨2, ![50000, 300]⟩ : Shape).Idx → EReal) :
    (⟨2, ![1024, 300]⟩ : Shape).Idx → EReal :=
  fun i => normalised (attr L W (i 0)) (i 1)

/-- Row b of labels continued by zeros past column 50000, by natural column. -/
def leftPadded (L : (⟨2, ![1024, 50000]⟩ : Shape).Idx → EReal) (b : Fin 1024) (v : ℕ) : EReal :=
  if h : v < 50000 then L (ix2 b ⟨v, h⟩) else 0

/-- Column d of weight continued by zeros past row 50000, by natural row. -/
def rightPadded (W : (⟨2, ![50000, 300]⟩ : Shape).Idx → EReal) (v : ℕ) (d : Fin 300) : EReal :=
  if h : v < 50000 then W (ix2 ⟨v, h⟩ d) else 0

/-- A sum over the first B · n naturals is the sum over n consecutive stretches of length B. -/
theorem sum_range_blocks {M : Type*} [AddCommMonoid M] (B : ℕ) (f : ℕ → M) :
    ∀ n, ∑ s ∈ Finset.range n, ∑ k ∈ Finset.range B, f (B * s + k) = ∑ v ∈ Finset.range (B * n), f v
  | 0 => by simp
  | n + 1 => by
    rw [Finset.sum_range_succ, sum_range_blocks B f n, Nat.mul_succ, Finset.sum_range_add]

/-- The seventeen partial sums over stretches of 2944 padded positions add up to the entry of labels · weight. -/
theorem blocks_eq_attr (L : (⟨2, ![1024, 50000]⟩ : Shape).Idx → EReal) (W : (⟨2, ![50000, 300]⟩ : Shape).Idx → EReal)
    (b : Fin 1024) (d : Fin 300) :
    ∑ s ∈ Finset.range 17, ∑ k : Fin 2944, leftPadded L b (2944 * s + k.val) * rightPadded W (2944 * s + k.val) d
      = attr L W b d := by
  have inner : ∀ s, ∑ k : Fin 2944, leftPadded L b (2944 * s + k.val) * rightPadded W (2944 * s + k.val) d
      = ∑ k ∈ Finset.range 2944, (fun v => leftPadded L b v * rightPadded W v d) (2944 * s + k) := fun s =>
    (Finset.sum_range (fun k => leftPadded L b (2944 * s + k) * rightPadded W (2944 * s + k) d)).symm
  rw [Finset.sum_congr rfl fun s _ => inner s, sum_range_blocks 2944 (fun v => leftPadded L b v * rightPadded W v d) 17,
    show 2944 * 17 = 50000 + 48 from rfl, Finset.sum_range_add]
  have tail : ∑ x ∈ Finset.range 48, leftPadded L b (50000 + x) * rightPadded W (50000 + x) d = 0 :=
    Finset.sum_eq_zero fun x _ => by
      unfold leftPadded rightPadded
      rw [dif_neg (by omega), dif_neg (by omega), mul_zero]
  rw [tail, add_zero, Finset.sum_range]
  unfold attr
  refine Finset.sum_congr rfl fun v _ => ?_
  unfold leftPadded rightPadded
  rw [dif_pos v.isLt, dif_pos v.isLt]

end Cert.Spec

end
-- ==== Proof.Blocks.lean ====
/-
  The two operand blocks of a step, read entry by entry.

  Before the kernel runs, labels gets 48 zero columns appended (to 50048 = 17 · 2944 columns) and weight 48 zero
  rows.  Step t of the 2 × 17 grid has row tile t / 17 and inner stretch t % 17: its left block is rows
  512 · (t / 17) … of the lengthened labels and columns 2944 · (t % 17) …, its right block rows 2944 · (t % 17) … of
  the lengthened weight and all 300 columns.  So an entry of a block is an entry of the operand continued by
  zeros, at a natural inner position.
-/
import proofs.«159803_j46651934769338_1_alg».proof.Proof.Gen.KernelIdeal.Frame
import proofs.«159803_j46651934769338_1_alg».proof.Proof.Spec
import Idealize.ShloMosaic.Lib.Pipeline.Value
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The lengthened labels array the kernel is launched on: labels with 48 columns of the padding value appended. -/
theorem left_entry (c : Dev nD) :
    (V m c main_v0 : S1024x50048.Idx → EReal)
      = pad S1024x50048 ![0, 0] ![0, 48] ![0, 0] (m ((c : Thread nD τ).loc main_arg0))
          (sitofp (F := Ideal) .f32 (constantI S_ 32 0#32)) pads_S1024x50000_S1024x50048_000_0480 h_S_ := by
  dsimp only [Gen.V]
  simp only [Gen.hostOps0, Gen.hostOps0_1, Gen.hostOps0_2, Gen.hostOps0_3, List.flatten_cons, List.flatten_nil,
    List.append_nil, List.cons_append, List.nil_append]
  after_results
  rfl

/-- The lengthened weight array: weight with 48 rows of the padding value appended. -/
theorem right_entry (c : Dev nD) :
    (V m c main_v1 : S50048x300.Idx → EReal)
      = pad S50048x300 ![0, 0] ![48, 0] ![0, 0] (m ((c : Thread nD τ).loc main_arg1))
          (sitofp (F := Ideal) .f32 (constantI S_ 32 0#32)) pads_S50000x300_S50048x300_0480_000 h_S_ := by
  dsimp only [Gen.V]
  simp only [Gen.hostOps0, Gen.hostOps0_1, Gen.hostOps0_2, Gen.hostOps0_3, List.flatten_cons, List.flatten_nil,
    List.append_nil, List.cons_append, List.nil_append]
  after_results
  rfl

/-- The padding value, the integer 0 converted, is the extended real 0. -/
theorem pad_value (i : S_.Idx) : (sitofp (F := Ideal) .f32 (constantI S_ 32 0#32) : FVec Ideal S_ .f32) i = 0 := by
  show ((BitVec.toInt (0#32) : ℝ) : EReal) = 0
  simp

/-- The lengthened labels at row a and natural column v: labels there, zero past column 50000. -/
theorem left_padded (c : Dev nD) (a : Fin 1024) (v : ℕ) (hv : v < 50048) :
    V m c main_v0 (ix2 a (⟨v, hv⟩ : Fin 50048)) = Cert.Spec.leftPadded (m ((c : Thread nD τ).loc main_arg0)) a v := by
  rw [left_entry]
  unfold Cert.Spec.leftPadded
  by_cases h : v < 50000
  · rw [dif_pos h]
    refine pad_apply_of_inside (s := S1024x50000) ![0, 0] ![0, 48] ![0, 0] _ _ pads_S1024x50000_S1024x50048_000_0480 h_S_ _
      (ix2 a (⟨v, h⟩ : Fin 50000)) fun ax => ?_
    match ax with
    | ⟨0, _⟩ => show a.val = 0 + a.val * (0 + 1); omega
    | ⟨1, _⟩ => show v = 0 + v * (0 + 1); omega
  · rw [dif_neg h]
    refine (pad_apply_of_not_inside (s := S1024x50000) ![0, 0] ![0, 48] ![0, 0] _ _ pads_S1024x50000_S1024x50048_000_0480 h_S_ _
      (1 : Fin 2) ?_).trans (pad_value _)
    show ¬(0 ≤ v ∧ (v - 0) % (0 + 1) = 0 ∧ (v - 0) / (0 + 1) < 50000)
    omega

/-- The lengthened weight at natural row v and column d: weight there, zero past row 50000. -/
theorem right_padded (c : Dev nD) (v : ℕ) (hv : v < 50048) (d : Fin 300) :
    V m c main_v1 (ix2 (⟨v, hv⟩ : Fin 50048) d) = Cert.Spec.rightPadded (m ((c : Thread nD τ).loc main_arg1)) v d := by
  rw [right_entry]
  unfold Cert.Spec.rightPadded
  by_cases h : v < 50000
  · rw [dif_pos h]
    refine pad_apply_of_inside (s := S50000x300) ![0, 0] ![48, 0] ![0, 0] _ _ pads_S50000x300_S50048x300_0480_000 h_S_ _
      (ix2 (⟨v, h⟩ : Fin 50000) d) fun ax => ?_
    match ax with
    | ⟨0, _⟩ => show v = 0 + v * (0 + 1); omega
    | ⟨1, _⟩ => show d.val = 0 + d.val * (0 + 1); omega
  · rw [dif_neg h]
    refine (pad_apply_of_not_inside (s := S50000x300) ![0, 0] ![48, 0] ![0, 0] _ _ pads_S50000x300_S50048x300_0480_000 h_S_ _
      (0 : Fin 2) ?_).trans (pad_value _)
    show ¬(0 ≤ v ∧ (v - 0) % (0 + 1) = 0 ∧ (v - 0) / (0 + 1) < 50000)
    omega

/-- Step t's left block sits at row tile t / 17 and inner stretch t % 17; its right block at inner stretch t % 17. -/
theorem block_indices : ∀ t : Fin cfg0.N, win0_0.index t (0 : Fin 2) = t.val / 17 ∧ win0_0.index t (1 : Fin 2) = t.val % 17
    ∧ win0_1.index t (0 : Fin 2) = t.val % 17 ∧ win0_1.index t (1 : Fin 2) = 0 :=
  (by decide +kernel : ∀ t : Fin grid0.N, win0_0.index t (0 : Fin 2) = t.val / 17 ∧ win0_0.index t (1 : Fin 2) = t.val % 17
    ∧ win0_1.index t (0 : Fin 2) = t.val % 17 ∧ win0_1.index t (1 : Fin 2) = 0)

/-- Step t's left block, a [512, 2944] array. -/
def leftBlock (c : Dev nD) (t : Fin cfg0.N) : Vec Ideal S512x2944 .f32 := iblk m c 0 t

/-- Step t's right block, a [2944, 300] array. -/
def rightBlock (c : Dev nD) (t : Fin cfg0.N) : Vec Ideal S2944x300 .f32 := iblk m c 1 t

/-- Entry (r, k) of step t's left block. -/
theorem left_block (c : Dev nD) (t : Fin cfg0.N) (r : Fin 512) (k : Fin 2944)
    (hrow : 512 * (t.val / 17) + r.val < 1024) (hcol : 2944 * (t.val % 17) + k.val < 50048) :
    leftBlock m c t (ix2 r k)
      = V m c main_v0 (ix2 (⟨512 * (t.val / 17) + r.val, hrow⟩ : Fin 1024) (⟨2944 * (t.val % 17) + k.val, hcol⟩ : Fin 50048)) := by
  unfold leftBlock iblk
  rw [View.read_apply]
  show V m c main_v0 (((cfg0.win 0).blk t).view.emb (ix2 r k)) = _
  refine congrArg (V m c main_v0) (funext fun a => Fin.ext ?_)
  match a with
  | ⟨0, _⟩ => show win0_0.index t 0 * 512 + 1 * r.val = 512 * (t.val / 17) + r.val; rw [(block_indices t).1]; omega
  | ⟨1, _⟩ => show win0_0.index t 1 * 2944 + 1 * k.val = 2944 * (t.val % 17) + k.val; rw [(block_indices t).2.1]; omega

/-- Entry (k, d) of step t's right block. -/
theorem right_block (c : Dev nD) (t : Fin cfg0.N) (k : Fin 2944) (d : Fin 300)
    (hrow : 2944 * (t.val % 17) + k.val < 50048) :
    rightBlock m c t (ix2 k d)
      = V m c main_v1 (ix2 (⟨2944 * (t.val % 17) + k.val, hrow⟩ : Fin 50048) d) := by
  unfold rightBlock iblk
  rw [View.read_apply]
  show V m c main_v1 (((cfg0.win 1).blk t).view.emb (ix2 k d)) = _
  refine congrArg (V m c main_v1) (funext fun a => Fin.ext ?_)
  match a with
  | ⟨0, _⟩ => show win0_1.index t 0 * 2944 + 1 * k.val = 2944 * (t.val % 17) + k.val; rw [(block_indices t).2.2.1]; omega
  | ⟨1, _⟩ => show win0_1.index t 1 * 300 + 1 * d.val = d.val; rw [(block_indices t).2.2.2]; omega

/-- The product of step t's two blocks at (r, d), for t in row tile q at inner stretch s: the partial sum of the
    lengthened operands over stretch s, in row 512 · q + r. -/
theorem block_product (c : Dev nD) (t : Fin cfg0.N) (r : Fin 512) (d : Fin 300) (q s : ℕ) (hq : t.val / 17 = q)
    (hs : t.val % 17 = s) (hrow : 512 * q + r.val < 1024) :
    ∑ k : Fin 2944, leftBlock m c t (ix2 r k) * rightBlock m c t (ix2 k d)
      = ∑ k : Fin 2944, Cert.Spec.leftPadded (m ((c : Thread nD τ).loc main_arg0)) ⟨512 * q + r.val, hrow⟩ (2944 * s + k.val)
          * Cert.Spec.rightPadded (m ((c : Thread nD τ).loc main_arg1)) (2944 * s + k.val) d := by
  subst hq hs
  refine Finset.sum_congr rfl fun k _ => ?_
  have hk : 2944 * (t.val % 17) + k.val < 50048 := by have := k.isLt; omega
  rw [left_block m c t r k hrow hk, right_block m c t k d hk, left_padded, right_padded]

end Cert.KernelIdeal.Blocks

end
-- ==== Proof.Accumulate.lean ====
/-
  The running accumulator, step by step.

  Within a row tile the seventeen steps run in order.  The first clears the accumulator and adds its block
  product, every later one adds its block product to what the step before left.  So after the step at inner
  stretch j the accumulator holds, at (r, d), zero plus the sum of the block products of stretches 0 … j — and
  after the last stretch, by the splitting of a sum over 17 · 2944 positions into stretches, the entry of
  labels · weight in the tile's row r.
-/
import proofs.«159803_j46651934769338_1_alg».proof.Proof.Gen.KernelIdeal.Value
import proofs.«159803_j46651934769338_1_alg».proof.Proof.Pieces
import proofs.«159803_j46651934769338_1_alg».proof.Proof.Payloads
import proofs.«159803_j46651934769338_1_alg».proof.Proof.Blocks

noncomputable section

open Idealize.ShloMosaic Idealize.ShloMosaic.TcCoe Idealize.SL.Sem Idealize.ShloMosaic.ValueIdx

namespace Cert.KernelIdeal.Accumulate

open Cert.KernelIdeal Cert.KernelIdeal.Gen Cert.KernelIdeal.Blocks

variable (m : (ℓ : Loc nD τ sig) → Buf (Elt Ideal) ℓ)

/-- What step n adds at (r, d): the product of its two blocks there (nothing past the grid). -/
def addend (c : Dev nD) (n : ℕ) (r : Fin 512) (d : Fin 300) : EReal :=
  if h : n < cfg0.N then ∑ k : Fin 2944, leftBlock m c ⟨n, h⟩ (ix2 r k) * rightBlock m c ⟨n, h⟩ (ix2 k d) else 0

/-- One step of the accumulator: the update applied to the cleared block at the first step of a tile, to what the
    step before left otherwise. -/
theorem step_eq (c : Dev nD) (n : ℕ) (hb : n < cfg0.N) (acc : Vec Ideal S512x300 .f32) :
    Cert.KernelIdeal.Value.scAt0_0 m c n hb acc
      = k0_pay2 (F := Ideal) (leftBlock m c ⟨n, hb⟩) (rightBlock m c ⟨n, hb⟩) (if n % 17 = 0 then k0_pay1 (F := Ideal) else acc) := by
  unfold Cert.KernelIdeal.Value.scAt0_0
  by_cases h0 : n % 17 = 0
  · have h1 : ¬n % 17 = 16 := by omega
    rw [dif_pos h0, dif_neg h1, if_pos h0]
    exact Pieces.acc_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩)
  · rw [dif_neg h0, if_neg h0]
    by_cases h1 : n % 17 = 16
    · rw [dif_pos h1]
      exact Pieces.acc_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) acc
    · rw [dif_neg h1]
      exact Pieces.acc_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) acc

/-- The same at an entry: zero (first step) or the old entry, plus the step's addend. -/
theorem step_apply (c : Dev nD) (n : ℕ) (hb : n < cfg0.N) (acc : Vec Ideal S512x300 .f32) (r : Fin 512) (d : Fin 300) :
    Cert.KernelIdeal.Value.scAt0_0 m c n hb acc (ix2 r d) = (if n % 17 = 0 then 0 else acc (ix2 r d)) + addend m c n r d := by
  rw [step_eq]
  refine (Payloads.update_apply (leftBlock m c ⟨n, hb⟩) (rightBlock m c ⟨n, hb⟩) _ r d).trans ?_
  unfold addend
  rw [dif_pos hb]
  by_cases h0 : n % 17 = 0
  · rw [if_pos h0, if_pos h0, Payloads.cleared_apply]
  · rw [if_neg h0, if_neg h0]

/-- After step t the accumulator holds zero plus the addends of its tile's steps up to t. -/
theorem acc_after (c : Dev nD) (t : Fin cfg0.N) (r : Fin 512) (d : Fin 300) :
    (outsAt0 m c t.val t.isLt).2 (ix2 r d)
      = 0 + ∑ s ∈ Finset.range (t.val % 17 + 1), addend m c (17 * (t.val / 17) + s) r d := by
  rw [Cert.KernelIdeal.Value.soutsAt0_0_eq m c t]
  refine Pipeline.accAt_add_apply (ι := S512x300.Idx) (β := EReal)
    (fun n h => Cert.KernelIdeal.Value.scAt0_0 m c n h (VS0_0.read (Elt Ideal) VS0_0.junk)) (Cert.KernelIdeal.Value.scAt0_0 m c)
    (fun _ => (0 : EReal)) (fun n i => addend m c n (i 0) (i 1)) (17 * (t.val / 17)) 16 ?_ ?_ (t.val % 17) (by omega) _ (ix2 r d)
  · intro h i
    obtain ⟨r', d', rfl⟩ : ∃ (r' : Fin 512) (d' : Fin 300), i = ix2 r' d' := ⟨i 0, i 1, eq_ix2 i⟩
    refine (step_apply m c _ h _ r' d').trans ?_
    rw [if_pos (Nat.mul_mod_right 17 _)]
  · intro n h acc i hlo hhi
    obtain ⟨r', d', rfl⟩ : ∃ (r' : Fin 512) (d' : Fin 300), i = ix2 r' d' := ⟨i 0, i 1, eq_ix2 i⟩
    refine (step_apply m c n h acc r' d').trans ?_
    rw [if_neg (by omega)]

/-- After the last step of row tile q the accumulator holds labels · weight in the tile's rows. -/
theorem acc_full (c : Dev nD) (t : Fin cfg0.N) (h16 : t.val % 17 = 16) (r : Fin 512) (d : Fin 300)
    (hrow : 512 * (t.val / 17) + r.val < 1024) :
    (outsAt0 m c t.val t.isLt).2 (ix2 r d)
      = Cert.Spec.attr (m ((c : Thread nD τ).loc main_arg0)) (m ((c : Thread nD τ).loc main_arg1)) ⟨512 * (t.val / 17) + r.val, hrow⟩ d := by
  have hN : cfg0.N = 34 := N_0
  have ht : t.val < 34 := lt_of_lt_of_eq t.isLt hN
  rw [acc_after, h16, zero_add, ← Cert.Spec.blocks_eq_attr]
  refine Finset.sum_congr rfl fun s hs => ?_
  have hs' : s < 17 := Finset.mem_range.mp hs
  have hb : 17 * (t.val / 17) + s < cfg0.N := lt_of_lt_of_eq (by omega : 17 * (t.val / 17) + s < 34) hN.symm
  unfold addend
  rw [dif_pos hb]
  exact block_product m c ⟨17 * (t.val / 17) + s, hb⟩ r d (t.val / 17) s (by show (17 * (t.val / 17) + s) / 17 = t.val / 17; omega)
    (by show (17 * (t.val / 17) + s) % 17 = s; omega) hrow

end Cert.KernelIdeal.Accumulate

end
-- ==== Proof.KernelWhole.lean ====
/-
  The kernel's result array.

  The output block of row tile q is written once, at the tile's last step, with the normalised rows of the full
  accumulator; the two tiles' blocks are rows 0 … 511 and 512 … 1023 of the [1024, 300] result and are written
  back only at those two steps.  So the array ends holding, in every row, that row of labels · weight divided by
  its norm plus the constant.
-/
import proofs.«159803_j46651934769338_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The common value, of this program's argument arrays on core c. -/
def resultOf (c : Dev nD) : S1024x300.Idx → EReal :=
  Cert.Spec.result (m ((c : Thread nD τ).loc main_arg0)) (m ((c : Thread nD τ).loc main_arg1))

/-- Step t's output block is row tile t / 17, all columns. -/
theorem out_indices : ∀ t : Fin cfg0.N, win0_2.index t (0 : Fin 2) = t.val / 17 ∧ win0_2.index t (1 : Fin 2) = 0 :=
  (by decide +kernel : ∀ t : Fin grid0.N, win0_2.index t (0 : Fin 2) = t.val / 17 ∧ win0_2.index t (1 : Fin 2) = 0)

/-- At a tile's last step the output block is the normalised accumulator of that step. -/
theorem out_block (c : Dev nD) (t : Fin cfg0.N) (h16 : t.val % 17 = 16) :
    (outsAt0 m c t.val t.isLt).1 = k0_pay3 (F := Ideal) (outsAt0 m c t.val t.isLt).2 := by
  have h0 : ¬t.val % 17 = 0 := by omega
  rw [outsAt0_C m c t h0 h16]
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h16) (iblk m c 0 t) (iblk m c 1 t) (outsAt0 m c (t.val - 1) (Nat.lt_of_le_of_lt (Nat.sub_le _ _) t.isLt)).2).trans
    (congrArg (k0_pay3 (F := Ideal)) (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h16) (iblk m c 0 t) (iblk m c 1 t) (outsAt0 m c (t.val - 1) (Nat.lt_of_le_of_lt (Nat.sub_le _ _) t.isLt)).2).symm)

/-- Entry j of that block is the common value at row 512 · (t / 17) + (row of j). -/
theorem block_entry (c : Dev nD) (t : Fin cfg0.N) (h16 : t.val % 17 = 16) (j : S512x300.Idx) :
    k0_pay3 (F := Ideal) (outsAt0 m c t.val t.isLt).2 j = resultOf m c (((cfg0.win 2).blk t).view.emb j) := by
  obtain ⟨r, d, rfl⟩ : ∃ (r : Fin 512) (d : Fin 300), j = ix2 r d := ⟨j 0, j 1, eq_ix2 j⟩
  have ht : t.val < 34 := lt_of_lt_of_eq t.isLt (show cfg0.N = 34 from N_0)
  have hrow : 512 * (t.val / 17) + r.val < 1024 := by have := r.isLt; omega
  have hemb : ((cfg0.win 2).blk t).view.emb (ix2 r d) = ix2 (⟨512 * (t.val / 17) + r.val, hrow⟩ : Fin 1024) d :=
    funext fun a => Fin.ext (by
      match a with
      | ⟨0, _⟩ => show win0_2.index t 0 * 512 + 1 * r.val = 512 * (t.val / 17) + r.val; rw [(out_indices t).1]; omega
      | ⟨1, _⟩ => show win0_2.index t 1 * 300 + 1 * d.val = d.val; rw [(out_indices t).2]; omega)
  have key : ∀ e : Fin 300, (outsAt0 m c t.val t.isLt).2 (ix2 r e)
      = Cert.Spec.attr (m ((c : Thread nD τ).loc main_arg0)) (m ((c : Thread nD τ).loc main_arg1)) ⟨512 * (t.val / 17) + r.val, hrow⟩ e :=
    fun e => Accumulate.acc_full m c t h16 r e hrow
  rw [hemb]
  refine (Payloads.normalised_apply _ r d).trans ?_
  rw [key d, Finset.sum_congr rfl fun e _ => congrArg (fun x => x * x) (key e)]
  rfl

set_option maxRecDepth 200000 in
/-- What a writing step writes back is its block of the common value. -/
theorem flushed_eq (c : Dev nD) (t : Fin cfg0.N) (hf : (cfg0.win 2).flush t = true) :
    (dats m 0 c).flushed 2 t = ((cfg0.win 2).blk t).view.read (Elt Ideal) (resultOf m c) := by
  have h16 : t.val % 17 = 16 := (flush0_2 t).mp hf
  rw [Cert.KernelIdeal.Value.flushed2, out_block m c t h16]
  exact funext fun j => block_entry m c t h16 j

/-- An index of the result is in step t's output block iff each coordinate is in the block's range. -/
theorem mem_blk (t : Fin cfg0.N) (i : S1024x300.Idx) :
    i ∈ ((cfg0.win 2).blk t).view.set ↔ ∀ a : Fin 2, win0_2.index t a * S512x300.size a ≤ (i a).val
      ∧ (i a).val < win0_2.index t a * S512x300.size a + S512x300.size a := by
  show i ∈ ((View.whole main_v2).slice (win0_2.rect t)).set ↔ _
  rw [View.set_slice_whole, Rect.mem_set_unit]
  exact Iff.rfl

/-- Every index of the result lies in the block written at the last step of its row tile. -/
theorem covered (i : S1024x300.Idx) :
    ∃ t : Fin cfg0.N, (cfg0.win 2).flush t = true ∧ i ∈ ((cfg0.win 2).blk t).view.set := by
  have hi0 : (i 0).val < 1024 := (i 0).isLt
  have hi1 : (i 1).val < 300 := (i 1).isLt
  have hb : 17 * ((i 0).val / 512) + 16 < cfg0.N :=
    lt_of_lt_of_eq (by omega : 17 * ((i 0).val / 512) + 16 < 34) (show cfg0.N = 34 from N_0).symm
  refine ⟨⟨17 * ((i 0).val / 512) + 16, hb⟩, (flush0_2 _).mpr (by show (17 * ((i 0).val / 512) + 16) % 17 = 16; omega), ?_⟩
  rw [mem_blk]
  intro a
  match a with
  | ⟨0, _⟩ =>
    show win0_2.index ⟨17 * ((i 0).val / 512) + 16, hb⟩ 0 * 512 ≤ (i 0).val
      ∧ (i 0).val < win0_2.index ⟨17 * ((i 0).val / 512) + 16, hb⟩ 0 * 512 + 512
    rw [(out_indices ⟨17 * ((i 0).val / 512) + 16, hb⟩).1]
    show (17 * ((i 0).val / 512) + 16) / 17 * 512 ≤ (i 0).val ∧ (i 0).val < (17 * ((i 0).val / 512) + 16) / 17 * 512 + 512
    omega
  | ⟨1, _⟩ =>
    show win0_2.index ⟨17 * ((i 0).val / 512) + 16, hb⟩ 1 * 300 ≤ (i 1).val
      ∧ (i 1).val < win0_2.index ⟨17 * ((i 0).val / 512) + 16, hb⟩ 1 * 300 + 300
    rw [(out_indices ⟨17 * ((i 0).val / 512) + 16, hb⟩).2]
    omega

/-- The result array after the run is the common value. -/
theorem final (c : Dev nD) : (dats m 0 c).arrAt 2 cfg0.N = resultOf m c :=
  (dats m 0 c).arrAt_eq_of_cover 2 (resultOf m c) (fun t hf => flushed_eq m c t hf) covered

/-- The kernel's run: it ends with the result array at the common value and the arguments unchanged. -/
theorem run : θ_run defs (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.Reference.lean ====
/-
  The reference program computes the common value.

  Read one operation at a time: the matrix product's entry (b, d) is the sum over the 50000 inner positions; the
  row sums of its squares start from the constant zero; the square root and the added constant are taken on a
  [1024, 1] column that is spread back along the rows; and the final quotient is entry by entry.  Zero plus the
  row sum is the row sum, which is the only step between this reading and the common value.
-/
import proofs.«159803_j46651934769338_1_alg».proof.Proof.Gen.ReferenceIdeal.Read
import proofs.«159803_j46651934769338_1_alg».proof.Proof.Spec

noncomputable section

open Idealize.ShloMosaic Idealize.ShloMosaic.ValueIdx

namespace Cert.ReferenceIdeal.Hand

open Cert.ReferenceIdeal Cert.ReferenceIdeal.Read

/-- The matrix product's entry (b, e) is that of labels · weight. -/
theorem product_apply (x0 : S1024x50000.Idx → EReal) (x1 : S50000x300.Idx → EReal) (b : Fin 1024) (e : Fin 300) :
    val_main_v0 (F := Ideal) x0 x1 (ix2 b e) = Cert.Spec.attr x0 x1 b e := by
  rw [val_main_v0_apply]
  unfold Cert.Spec.attr
  refine Finset.sum_congr rfl fun k _ => ?_
  have el : lidx_main_v0 (ix2 b e) k = ix2 b k :=
    funext fun a => Fin.ext (by match a with | ⟨0, _⟩ => rfl | ⟨1, _⟩ => rfl)
  have er : ridx_main_v0 (ix2 b e) k = ix2 k e :=
    funext fun a => Fin.ext (by match a with | ⟨0, _⟩ => rfl | ⟨1, _⟩ => rfl)
  rw [el, er]

/-- The reference's result is the common value of its two arguments. -/
theorem result_eq (x0 : S1024x50000.Idx → EReal) (x1 : S50000x300.Idx → EReal) :
    val_main_v8 (F := Ideal) x0 x1 = Cert.Spec.result x0 x1 := by
  funext i
  obtain ⟨b, d, rfl⟩ : ∃ (b : Fin 1024) (d : Fin 300), i = ix2 b d := ⟨i 0, i 1, eq_ix2 i⟩
  have e7 : idx_main_v7 (ix2 b d) = ix2 b (0 : Fin 1) :=
    funext fun a => Fin.ext (by match a with | ⟨0, _⟩ => rfl | ⟨1, _⟩ => rfl)
  have e3 : idx_main_v3 (ix2 b (0 : Fin 1)) = ix1 b :=
    funext fun a => Fin.ext (by match a with | ⟨0, _⟩ => rfl)
  have e2 : ∀ k : Fin 300, idx_main_v2 (ix1 b) k = ix2 b k := fun k =>
    funext fun a => Fin.ext (by match a with | ⟨0, _⟩ => rfl | ⟨1, _⟩ => rfl)
  rw [val_main_v8_apply, val_main_v7_apply, e7, val_main_v6_apply, val_main_v5_apply, val_main_cst_0_apply,
    val_main_v4_apply, val_main_v3_apply, e3, val_main_v2_apply, val_main_cst_apply]
  simp only [e2, val_main_v1_apply, product_apply]
  simp only [Ideal.hostDivf_def, Ideal.addf_def, Ideal.hostUnary_sqrt_def, Ideal.ofBits_def, Ideal.mulf_def,
    Ideal.ofBits_zero_f32, zero_add]
  rfl

end Cert.ReferenceIdeal.Hand

end
-- ==== Proof.lean ====
/-
  Row-normalised labels · weight: the kernel against the reference, over the extended reals.

  Both programs compute attr = labels · weight ([1024, 50000] times [50000, 300]) and divide every row of attr by
  its Euclidean norm plus one fixed small constant.  The kernel lengthens the inner axis with zeros to
  50048 = 17 · 2944, walks a 2 × 17 grid of (row tile, inner stretch) steps, accumulates the seventeen block
  products of a row tile in a scratch block, and at the tile's last step writes the normalised rows out.  The
  seventeen partial sums regroup the one sum over the inner axis, the appended zeros add nothing, a change of
  float format is the identity on extended reals, and the two sides use the same square root, quotient and
  constant: so both result arrays are the one function `Cert.Spec.result` of the arguments.  Only associativity
  and commutativity of addition are used, so the finiteness of the inputs is never needed.

  The three frame claims are the generated frames (the reference's is its generated run with the result
  dropped); the idealization rewrote nothing, so its claim is trivial.
-/
import proofs.«159803_j46651934769338_1_alg».proof.Defs
import proofs.«159803_j46651934769338_1_alg».proof.Proof.Gen.Kernel
import proofs.«159803_j46651934769338_1_alg».proof.Proof.Gen.Kernel.Skeleton
import proofs.«159803_j46651934769338_1_alg».proof.Proof.Gen.Kernel.Launch
import proofs.«159803_j46651934769338_1_alg».proof.Proof.Gen.Kernel.Points
import proofs.«159803_j46651934769338_1_alg».proof.Proof.Gen.Kernel.Frame
import proofs.«159803_j46651934769338_1_alg».proof.Proof.Gen.KernelIdeal
import proofs.«159803_j46651934769338_1_alg».proof.Proof.Gen.KernelIdeal.Skeleton
import proofs.«159803_j46651934769338_1_alg».proof.Proof.Gen.KernelIdeal.Launch
import proofs.«159803_j46651934769338_1_alg».proof.Proof.Gen.KernelIdeal.Points
import proofs.«159803_j46651934769338_1_alg».proof.Proof.Gen.KernelIdeal.Frame
import proofs.«159803_j46651934769338_1_alg».proof.Proof.Gen.ReferenceIdeal
import proofs.«159803_j46651934769338_1_alg».proof.Proof.Gen.Pre_finite_inputs
import proofs.«159803_j46651934769338_1_alg».proof.Proof.Gen.KernelIdeal.Value
import proofs.«159803_j46651934769338_1_alg».proof.Proof.Gen.ReferenceIdeal.Run
import proofs.«159803_j46651934769338_1_alg».proof.Proof.Gen.ReferenceIdeal.Read
import proofs.«159803_j46651934769338_1_alg».proof.Proof.KernelWhole
import proofs.«159803_j46651934769338_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the common value. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Hand.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
